-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel

variable [Facts]

def fn {F : FTy → Type} [FloatOps F] (main_arg0 : FVec F S32x512x1024 .f32) (main_arg1 : FVec F S32x512x1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x512x1024 .f32 := Host.absf main_arg1
  let main_cst_0 : FVec F S_ .f32 := constant S_ .f32 0x7F800000#32
  let main_v5 : FVec F S32x512x1024 .f32 := broadcastInDim S32x512x1024 ![] bcast_S_S32x512x1024 main_cst_0
  let main_v6 : IVec S32x512x1024 1 := cmpf .olt main_v4 main_v5
  let main_c_1 : IVec S_ 1 := constantI S_ 1 1#1
  let main_v7 : IVec S_ 1 := (fun x v => Host.reduce IntOp.andi x v reducesTo_S32x512x1024_S_d0_1_2 h_S_) main_v6 main_c_1
  let main_v8 : IVec S_ 1 := andi main_v3 main_v7
  main_v8
-- ==== Kernel.lean ====
abbrev S32x512x1024 : Shape := ⟨3, ![32, 512, 1024]⟩
abbrev S1x512x1024 : Shape := ⟨3, ![1, 512, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S32x512x1024, .f32⟩
  | .hbm, ⟨3, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  reduces_S512x512_S512 : S512x512.Reduces [1] S512
  shapeCasts_S512_S512x1 : S512.ShapeCasts S512x1
  broadcasts_S512x1_S512x512 : S512x1.Broadcasts S512x512
  reduces_S512x512_S512_2 : S512x512.Reduces [0] S512
  shapeCasts_S512_S1x512 : S512.ShapeCasts S1x512
  broadcasts_S1x512_S512x512 : S1x512.Broadcasts S512x512
  shapeCasts_S512x1024_S1x512x1024 : S512x1024.ShapeCasts S1x512x1024
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  dot_S512x512_S512x1024_S512x1024_0_0_1_1_n_n_wf : DotDims.WF S512x512 S512x1024 S512x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x512x1024.size a
  hwx0_1 : ∀ i : grid0.Coords, EltTy.bits .f32 = 32 ∨ (Rect.block (s := S32x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S32x512x1024.size a
  hwx0_2 : ∀ i : grid0.Coords, EltTy.bits .f32 = 32 ∨ (Rect.block (s := S32x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S32x512x1024.size a
  hwx0_3 : ∀ i : grid0.Coords, EltTy.bits .f32 = 32 ∨ (Rect.block (s := S32x512x1024) S1x512x1024.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x1024_S512x1024_0_0_1_1_n_n : DotDims S512x512 S512x1024 S512x1024 where
  lhsContracting := [0]
  rhsContracting := [0]
  lhsNonContracting := [1]
  rhsNonContracting := [1]
  lhsBatch := []
  rhsBatch := []
  wf := dot_S512x512_S512x1024_S512x1024_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S32x512x512 : Shape := ⟨3, ![32, 512, 512]⟩
abbrev S_ : Shape := ⟨0, ![]⟩
abbrev S32x512 : Shape := ⟨2, ![32, 512]⟩
abbrev S32x512x1 : Shape := ⟨3, ![32, 512, 1]⟩
abbrev S32x1x512 : Shape := ⟨3, ![32, 1, 512]⟩

abbrev nBuf : Space → Nat
  | .hbm => 33
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x512x1024, .f32⟩
  | .hbm, ⟨2, _⟩ => ⟨S32x512x512, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x512x1, .f32⟩
  | .hbm, ⟨9, _⟩ => ⟨S32x512x512, .f32⟩
  | .hbm, ⟨10, _⟩ => ⟨S32x512x512, .f32⟩
  | .hbm, ⟨11, _⟩ => ⟨S32x512x512, .f32⟩
  | .hbm, ⟨12, _⟩ => ⟨S_, .f32⟩
  | .hbm, ⟨13, _⟩ => ⟨S32x512, .f32⟩
  | .hbm, ⟨14, _⟩ => ⟨S32x512x1, .f32⟩
  | .hbm, ⟨15, _⟩ => ⟨S32x512x512, .f32⟩
  | .hbm, ⟨16, _⟩ => ⟨S32x512x512, .f32⟩
  | .hbm, ⟨17, _⟩ => ⟨S_, .f32⟩
  | .hbm, ⟨18, _⟩ => ⟨S32x512, .f32⟩
  | .hbm, ⟨19, _⟩ => ⟨S_, .f32⟩
  | .hbm, ⟨20, _⟩ => ⟨S32x512, .f32⟩
  | .hbm, ⟨21, _⟩ => ⟨S32x512, .f32⟩
  | .hbm, ⟨22, _⟩ => ⟨S32x1x512, .f32⟩
  | .hbm, ⟨23, _⟩ => ⟨S32x512x512, .f32⟩
  | .hbm, ⟨24, _⟩ => ⟨S32x512x512, .f32⟩
  | .hbm, ⟨25, _⟩ => ⟨S32x512x512, .f32⟩
  | .hbm, ⟨26, _⟩ => ⟨S_, .f32⟩
  | .hbm, ⟨27, _⟩ => ⟨S32x512, .f32⟩
  | .hbm, ⟨28, _⟩ => ⟨S32x1x512, .f32⟩
  | .hbm, ⟨29, _⟩ => ⟨S32x512x512, .f32⟩
  | .hbm, ⟨30, _⟩ => ⟨S32x512x512, .f32⟩
  | .hbm, ⟨31, _⟩ => ⟨S32x512x1024, .f32⟩
  | .hbm, ⟨32, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S32x512x512_S32x512_d2 : S32x512x512.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  reducesTo_S32x512x512_S32x512_d1 : S32x512x512.ReducesTo [1] S32x512
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  dot_S32x512x1024_S32x512x1024_S32x512x512_2_2_1_1_0_0_wf : DotDims.WF S32x512x1024 S32x512x1024 S32x512x512 [2] [2] [1] [1] [0] [0]
  dot_S32x512x512_S32x512x1024_S32x512x1024_2_1_1_2_0_0_wf : DotDims.WF S32x512x512 S32x512x1024 S32x512x1024 [2] [1] [1] [2] [0] [0]
  dot_S32x512x512_S32x512x1024_S32x512x1024_1_1_2_2_0_0_wf : DotDims.WF S32x512x512 S32x512x1024 S32x512x1024 [1] [1] [2] [2] [0] [0]

variable [Facts₀]

def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf
def dot_S32x512x512_S32x512x1024_S32x512x1024_2_1_1_2_0_0 : DotDims S32x512x512 S32x512x1024 S32x512x1024 where
  lhsContracting := [2]
  rhsContracting := [1]
  lhsNonContracting := [1]
  rhsNonContracting := [2]
  lhsBatch := [0]
  rhsBatch := [0]
  wf := dot_S32x512x512_S32x512x1024_S32x512x1024_2_1_1_2_0_0_wf
def dot_S32x512x512_S32x512x1024_S32x512x1024_1_1_2_2_0_0 : DotDims S32x512x512 S32x512x1024 S32x512x1024 where
  lhsContracting := [1]
  rhsContracting := [1]
  lhsNonContracting := [2]
  rhsNonContracting := [2]
  lhsBatch := [0]
  rhsBatch := [0]
  wf := dot_S32x512x512_S32x512x1024_S32x512x1024_1_1_2_2_0_0_wf

class Facts : Prop extends Facts₀ where

variable [Facts]
-- ==== Proof.Attend.lean ====
/-
  Two-sided attention between the rows of two matrices, on the extended reals.

  For matrices `A`, `B` of 512 rows and 1024 columns, the score of row `i` of `A` against row `j` of `B` is their
  inner product. The scores are normalised twice by a soft maximum: along each row `i` (over `j`), giving weights
  with which the rows of `B` are averaged into row `i` of the first result; and along each column `j` (over `i`),
  giving weights with which the rows of `A` are averaged into row `j` of the second result. A soft maximum subtracts
  the maximum of the entries it normalises (taken from −∞, and once more against −∞), exponentiates, and divides by
  the sum of the exponentials. Every operation is the extended reals' own; nothing is assumed finite.

  A [n, 512, 1024] array is `n` such matrices (`slab`), and the two whole results apply the above batch by batch.
-/
import Idealize.ShloMosaic.PureOps.Ideal
import Idealize.ShloMosaic.Lib.ValueIdx

noncomputable section

namespace Cert.Attend

open Idealize.ShloMosaic Idealize.ShloMosaic.ValueIdx

/-- The single-precision word of −∞, from which both maxima start. It is kept as its word: both sides of the
    certificate write the same one. -/
abbrev ninf : EReal := Ideal.ofBits .f32 0xFF800000#32

section Matrix

variable (A B : Fin 512 → Fin 1024 → EReal)

/-- The inner product of row `i` of `A` with row `j` of `B`. -/
def score (i j : Fin 512) : EReal := ∑ k : Fin 1024, A i k * B j k

/-- The maximum of row `i` of the scores. -/
def rowMax (i : Fin 512) : EReal :=
  max ninf ((Finset.univ : Finset (Fin 512)).fold max ninf fun j => score A B i j)

/-- A score's exponential after the row's maximum is subtracted. -/
def rowExp (i j : Fin 512) : EReal := Ideal.exp (score A B i j - rowMax A B i)

/-- The weight of column `j` in row `i`: the exponential over the row's sum of exponentials. -/
def rowSoft (i j : Fin 512) : EReal := Ideal.div (rowExp A B i j) (∑ j' : Fin 512, rowExp A B i j')

/-- Row `i` of the first result: the rows of `B` averaged with row `i`'s weights. -/
def outA (i : Fin 512) (d : Fin 1024) : EReal := ∑ j : Fin 512, rowSoft A B i j * B j d

/-- The maximum of column `j` of the scores. -/
def colMax (j : Fin 512) : EReal :=
  max ninf ((Finset.univ : Finset (Fin 512)).fold max ninf fun i => score A B i j)

/-- A score's exponential after the column's maximum is subtracted. -/
def colExp (i j : Fin 512) : EReal := Ideal.exp (score A B i j - colMax A B j)

/-- The weight of row `i` in column `j`: the exponential over the column's sum of exponentials. -/
def colSoft (i j : Fin 512) : EReal := Ideal.div (colExp A B i j) (∑ i' : Fin 512, colExp A B i' j)

/-- Row `j` of the second result: the rows of `A` averaged with column `j`'s weights. -/
def outB (j : Fin 512) (d : Fin 1024) : EReal := ∑ i : Fin 512, colSoft A B i j * A i d

end Matrix

/-- Matrix `t` of a stack of `n` matrices. -/
def slab {n : Nat} (X : (⟨3, ![n, 512, 1024]⟩ : Shape).Idx → EReal) (t : Fin n) : Fin 512 → Fin 1024 → EReal :=
  fun r k => X (ix3 t r k)

/-- The first result over a whole stack: entry (t, i, d) is entry (i, d) of the first result of the `t`-th matrices. -/
def wholeA (X Y : (⟨3, ![32, 512, 1024]⟩ : Shape).Idx → EReal) : (⟨3, ![32, 512, 1024]⟩ : Shape).Idx → EReal :=
  fun i => outA (slab X (i 0)) (slab Y (i 0)) (i 1) (i 2)

/-- The second result over a whole stack. -/
def wholeB (X Y : (⟨3, ![32, 512, 1024]⟩ : Shape).Idx → EReal) : (⟨3, ![32, 512, 1024]⟩ : Shape).Idx → EReal :=
  fun i => outB (slab X (i 0)) (slab Y (i 0)) (i 1) (i 2)

theorem wholeA_ix3 (X Y : (⟨3, ![32, 512, 1024]⟩ : Shape).Idx → EReal) (t : Fin 32) (i : Fin 512) (d : Fin 1024) :
    wholeA X Y (ix3 t i d) = outA (slab X t) (slab Y t) i d := rfl

theorem wholeB_ix3 (X Y : (⟨3, ![32, 512, 1024]⟩ : Shape).Idx → EReal) (t : Fin 32) (j : Fin 512) (d : Fin 1024) :
    wholeB X Y (ix3 t j d) = outB (slab X t) (slab Y t) j d := rfl

end Cert.Attend

end
-- ==== Proof.LibAxisReads.lean ====
/-
  Reading reductions over one axis, the keep-dimension layouts around them, and a one-axis matrix product at an
  entry — general facts about vectors on the extended reals, stated over literal ranks with symbolic extents.

  * A reduced index with the dropped coordinate put back is the index with that coordinate in its place
    (rank 2, either axis; rank 3, the last two axes).
  * A maximum or a sum along one axis of a rank-2 vector, read at a row or a column, is the fold of `max` from the
    starting word, or the sum, over that row or column.
  * The host's reduction with a maximum body along the last or the middle axis of a rank-3 array, read at an entry, is
    the same fold over that axis.
  * A vector kept as a column ([a] → [a, 1] → [a, b]) or as a row ([b] → [1, b] → [a, b]) reads back the entry of
    its row or column.
  * A matrix product into the zero accumulator that contracts ONE axis, read at an entry, is the sum over that
    axis of the products of the two operands read where the dimension numbers send the entry and the position.
-/
import Idealize.ShloMosaic.PureOps.Ideal.Laws
import Idealize.ShloMosaic.Lib.ValueIdx
import Idealize.ShloMosaic.Lib.ValueLayout
import Idealize.ShloMosaic.Lib.Pipeline.Value

noncomputable section

namespace Cert.AxisReads

open Idealize.ShloMosaic Idealize.ShloMosaic.ValueIdx

/-! ## The dropped coordinate put back -/

/-- Rank 2, the second axis dropped: row `i` with column `k` put back is (i, k). -/
theorem lift2_axis1 {a b : Nat} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Rank 2, the first axis dropped: column `j` with row `k` put back is (k, j). -/
theorem lift2_axis0 {a b : Nat} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- Rank 3, the last axis dropped: (t, i) with `k` put back is (t, i, k). -/
theorem lift3_axis2 {n a b : Nat} (h : (⟨3, ![n, a, b]⟩ : Shape).Reduces [2] (⟨2, ![n, a]⟩ : Shape)) (t : Fin n) (i : Fin a)
    (k : Fin ((⟨3, ![n, a, b]⟩ : Shape).size 2)) : h.lift (ix2 t i) k = ix3 t i (⟨k.val, k.isLt⟩ : Fin b) := by
  funext c; apply Fin.ext
  fin_cases c <;> rfl

/-- Rank 3, the middle axis dropped: (t, j) with `k` put back is (t, k, j). -/
theorem lift3_axis1 {n a b : Nat} (h : (⟨3, ![n, a, b]⟩ : Shape).Reduces [1] (⟨2, ![n, b]⟩ : Shape)) (t : Fin n) (j : Fin b)
    (k : Fin ((⟨3, ![n, a, b]⟩ : Shape).size 1)) : h.lift (ix2 t j) k = ix3 t (⟨k.val, k.isLt⟩ : Fin a) j := by
  funext c; apply Fin.ext
  fin_cases c <;> rfl

/-! ## A maximum and a sum along one axis of a rank-2 vector -/

/-- The maximum along the rows: at row `i`, the fold of `max` from the starting word over the row's entries. -/
theorem rowMax_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] (⟨1, ![a]⟩ : Shape) src acc h hφ hacc (ix1 i)
      = (Finset.univ : Finset (Fin b)).fold max (Ideal.ofBits .f32 acc) fun j => src (ix2 i j) := by
  refine (Ideal.multiReduction_maximumf_single src acc h hφ hacc (ix1 i)).trans ?_
  have hf : (src ∘ h.lift (ix1 i)) = fun j : Fin b => src (ix2 i j) :=
    funext fun k => congrArg src (lift2_axis1 h i k)
  exact congrArg (fun f => Finset.fold max (Ideal.ofBits .f32 acc) f (Finset.univ : Finset (Fin b))) hf

/-- The maximum along the columns: at column `j`, the fold of `max` from the starting word over the column's entries. -/
theorem colMax_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] (⟨1, ![b]⟩ : Shape) src acc h hφ hacc (ix1 j)
      = (Finset.univ : Finset (Fin a)).fold max (Ideal.ofBits .f32 acc) fun i => src (ix2 i j) := by
  refine (Ideal.multiReduction_maximumf_single src acc h hφ hacc (ix1 j)).trans ?_
  have hf : (src ∘ h.lift (ix1 j)) = fun i : Fin a => src (ix2 i j) :=
    funext fun k => congrArg src (lift2_axis0 h j k)
  exact congrArg (fun f => Finset.fold max (Ideal.ofBits .f32 acc) f (Finset.univ : Finset (Fin a))) hf

/-- The sum along the rows: at row `i`, the sum of the row's entries. -/
theorem rowSum_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] (⟨1, ![a]⟩ : Shape) src acc h hφ hacc (ix1 i) = ∑ j : Fin b, src (ix2 i j) := by
  refine (Ideal.multiReduction_add_single src acc h hφ hacc (ix1 i)).trans ?_
  exact Finset.sum_congr rfl fun k _ => congrArg src (lift2_axis1 h i k)

/-- The sum along the columns: at column `j`, the sum of the column's entries. -/
theorem colSum_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.add.neutral .f32 hφ) (j : Fin b) :
    multiReduction .add [0] (⟨1, ![b]⟩ : Shape) src acc h hφ hacc (ix1 j) = ∑ i : Fin a, src (ix2 i j) := by
  refine (Ideal.multiReduction_add_single src acc h hφ hacc (ix1 j)).trans ?_
  exact Finset.sum_congr rfl fun k _ => congrArg src (lift2_axis0 h j k)

/-! ## The host's maximum along one axis of a rank-3 array -/

/-- The host's reduction with a maximum body over the LAST axis, at (t, i): the fold of `max` from the initial value over
    the entries (t, i, ·). -/
theorem hostMax3_last_apply {n a b : Nat} (x : FVec Ideal (⟨3, ![n, a, b]⟩ : Shape) .f32) (init : FVec Ideal (⟨0, ![]⟩ : Shape) .f32)
    (h' : (⟨3, ![n, a, b]⟩ : Shape).ReducesTo [2] (⟨2, ![n, a]⟩ : Shape)) (hu : 0 < (⟨0, ![]⟩ : Shape).numel) (t : Fin n) (i : Fin a) :
    Host.reduce FloatOps.maximumf x init h' hu (ix2 t i)
      = (Finset.univ : Finset (Fin b)).fold max (init (Shape.Idx.first hu)) fun k => x (ix3 t i k) := by
  have h : (⟨3, ![n, a, b]⟩ : Shape).Reduces [2] (⟨2, ![n, a]⟩ : Shape) := ⟨h'.1, Nat.zero_lt_two, h'.2⟩
  refine (Host.reduce_eq_fold_single FloatOps.maximumf x init h' h hu (ix2 t i)).trans ?_
  have hf : (x ∘ h.lift (ix2 t i)) = fun k : Fin b => x (ix3 t i k) := funext fun k => congrArg x (lift3_axis2 h t i k)
  exact congrArg (fun f => Finset.fold max (init (Shape.Idx.first hu)) f (Finset.univ : Finset (Fin b))) hf

/-- The host's reduction with a maximum body over the MIDDLE axis, at (t, j): the fold of `max` from the initial value
    over the entries (t, ·, j). -/
theorem hostMax3_mid_apply {n a b : Nat} (x : FVec Ideal (⟨3, ![n, a, b]⟩ : Shape) .f32) (init : FVec Ideal (⟨0, ![]⟩ : Shape) .f32)
    (h' : (⟨3, ![n, a, b]⟩ : Shape).ReducesTo [1] (⟨2, ![n, b]⟩ : Shape)) (hu : 0 < (⟨0, ![]⟩ : Shape).numel) (t : Fin n) (j : Fin b) :
    Host.reduce FloatOps.maximumf x init h' hu (ix2 t j)
      = (Finset.univ : Finset (Fin a)).fold max (init (Shape.Idx.first hu)) fun k => x (ix3 t k j) := by
  have h : (⟨3, ![n, a, b]⟩ : Shape).Reduces [1] (⟨2, ![n, b]⟩ : Shape) := ⟨h'.1, Nat.zero_lt_two, h'.2⟩
  refine (Host.reduce_eq_fold_single FloatOps.maximumf x init h' h hu (ix2 t j)).trans ?_
  have hf : (x ∘ h.lift (ix2 t j)) = fun k : Fin a => x (ix3 t k j) := funext fun k => congrArg x (lift3_axis1 h t j k)
  exact congrArg (fun f => Finset.fold max (init (Shape.Idx.first hu)) f (Finset.univ : Finset (Fin a))) hf

/-! ## A vector kept as a column, or as a row -/

variable {α : Type}

/-- An `[a]` vector cast to the column `[a, 1]` reads, at `(i, u)`, entry `i`. -/
theorem shapeCast_a_a1_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector kept as a column and spread over the columns reads its own entry `i` all along row `i`. -/
theorem column_spread_apply {a b : Nat} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

/-- A vector kept as a row and spread over the rows reads its own entry `j` all along column `j`. -/
theorem row_spread_apply {a b : Nat} (x : (⟨1, ![b]⟩ : Shape).Idx → α) (h : (⟨1, ![b]⟩ : Shape).ShapeCasts ⟨2, ![1, b]⟩)
    (h' : (⟨2, ![1, b]⟩ : Shape).Broadcasts ⟨2, ![a, b]⟩) (i : Fin a) (j : Fin b) :
    broadcastTo ⟨2, ![a, b]⟩ (shapeCast ⟨2, ![1, b]⟩ x h) h' (ix2 i j) = x (ix1 j) :=
  (broadcastTo_1b_ab_apply _ h' i j).trans (shapeCast_a_1a_apply x h 0 j)

/-! ## A one-axis matrix product into zero, at an entry -/

/-- With ONE contracted axis of extent `n`, the product into the zero accumulator at entry `j` is the sum over
    `k : Fin n` of the operands' products, each operand read where the dimension numbers send `j` and position `k`
    (`hl`, `hr`: what those reads are). -/
theorem matmul_zero_single {sl sr so : Shape} {φ₁ φ₂ : FTy} (D : DotDims sl sr so) (n : Nat) (hrk : D.contr.rank = 1)
    (hs : D.contr.size ⟨0, by omega⟩ = n) (lhs : FVec Ideal sl φ₁) (rhs : FVec Ideal sr φ₂) (j : so.Idx)
    (L R : Fin n → EReal)
    (hl : ∀ k : Fin n, lhs (D.lhsIdx j ((contrEquiv1 D n hrk hs).symm k)) = L k)
    (hr : ∀ k : Fin n, rhs (D.rhsIdx j ((contrEquiv1 D n hrk hs).symm k)) = R k) :
    matmul D none lhs rhs (constant so .f32 0x00000000#32) j = ∑ k : Fin n, L k * R k := by
  show FloatOps.matmul D none lhs rhs (constant so .f32 0x00000000#32) j = _
  rw [Ideal.matmul_constant_zero_apply, ← Equiv.sum_comp (contrEquiv1 D n hrk hs).symm]
  exact Finset.sum_congr rfl fun k _ => by rw [hl k, hr k]

end Cert.AxisReads

end
-- ==== Proof.KernelBlock.lean ====
/-
  The kernel's body on one pair of blocks, read entry by entry on the extended reals.

  A block is one matrix of each argument stack, as a [1, 512, 1024] vector; the body drops the unit axis (roundings to
  a narrower format are the identity here), forms the scores of the rows of the first block against the rows of
  the second by a matrix product contracting the column axis of both, normalises them along the rows and along the
  columns, and multiplies: the row weights with the second block (contracting the weights' columns against the
  block's rows), the column weights with the first block (contracting the weights' ROWS against the block's rows).
  Each step below reads one of the body's values at an entry; together they say the body computes the two-sided
  attention of the blocks' matrices.
-/
import proofs.«118593_j85847806313068_1_alg».proof.Proof.Gen.KernelIdeal.Skeleton
import proofs.«118593_j85847806313068_1_alg».proof.Proof.Attend
import proofs.«118593_j85847806313068_1_alg».proof.Proof.LibAxisReads

noncomputable section

namespace Cert.KernelIdeal.Block

open Cert.KernelIdeal Cert.KernelIdeal.Gen Idealize.ShloMosaic Idealize.ShloMosaic.ValueIdx Cert.Attend Cert.AxisReads

/-! ## The two operands as matrices -/

/-- The first block with its unit axis dropped, at (i, k), is the block at (0, i, k). -/
theorem left_at (x0 : Vec Ideal S1x512x1024 .f32) (i : Fin 512) (k : Fin 1024) :
    k0_pay2 (F := Ideal) x0 (ix2 i k) = slab x0 (0 : Fin 1) i k := by
  unfold k0_pay2
  exact shapeCast_1ab_ab_apply x0 shapeCasts_S1x512x1024_S512x1024 i k

/-- The second block with its unit axis dropped, at (j, k), is the block at (0, j, k). -/
theorem right_at (x1 : Vec Ideal S1x512x1024 .f32) (j : Fin 512) (k : Fin 1024) :
    k0_pay3 (F := Ideal) x1 (ix2 j k) = slab x1 (0 : Fin 1) j k := by
  unfold k0_pay3
  exact shapeCast_1ab_ab_apply x1 shapeCasts_S1x512x1024_S512x1024 j k

/-! ## The scores: the product contracting the column axis of both operands -/

/-! ### The score product's operand coordinates: it contracts the column axis of both operands -/

theorem sc_lhs_0 (j : S512x512.Idx) (q : dot_S512x1024_S512x1024_S512x512_1_1_0_0_n_n.contr.Idx) :
    (dot_S512x1024_S512x1024_S512x512_1_1_0_0_n_n.lhsIdx j q 0).val = (j 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl

theorem sc_lhs_1 (j : S512x512.Idx) (q : dot_S512x1024_S512x1024_S512x512_1_1_0_0_n_n.contr.Idx) :
    (dot_S512x1024_S512x1024_S512x512_1_1_0_0_n_n.lhsIdx j q 1).val = (q ⟨0, by decide⟩).val :=
  dot_S512x1024_S512x1024_S512x512_1_1_0_0_n_n.lhsIdx_val_of_single rfl j q

theorem sc_rhs_0 (j : S512x512.Idx) (q : dot_S512x1024_S512x1024_S512x512_1_1_0_0_n_n.contr.Idx) :
    (dot_S512x1024_S512x1024_S512x512_1_1_0_0_n_n.rhsIdx j q 0).val = (j 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl

theorem sc_rhs_1 (j : S512x512.Idx) (q : dot_S512x1024_S512x1024_S512x512_1_1_0_0_n_n.contr.Idx) :
    (dot_S512x1024_S512x1024_S512x512_1_1_0_0_n_n.rhsIdx j q 1).val = (q ⟨0, by decide⟩).val :=
  dot_S512x1024_S512x1024_S512x512_1_1_0_0_n_n.rhsIdx_val_of_single rfl j q

/-- Where the score at (i, j) reads the first operand at contraction position `k`: (i, k). -/
theorem score_lhs (i j : Fin 512) (k : Fin 1024) :
    dot_S512x1024_S512x1024_S512x512_1_1_0_0_n_n.lhsIdx (ix2 i j) ((contrEquiv1 dot_S512x1024_S512x1024_S512x512_1_1_0_0_n_n 1024 rfl rfl).symm k) = ix2 i k :=
  funext fun a => Fin.ext (by
    match a with
    | ⟨0, _⟩ => exact sc_lhs_0 _ _
    | ⟨1, _⟩ => exact (sc_lhs_1 _ _).trans (contrEquiv1_symm_val dot_S512x1024_S512x1024_S512x512_1_1_0_0_n_n 1024 rfl rfl k))

/-- Where it reads the second operand: (j, k). -/
theorem score_rhs (i j : Fin 512) (k : Fin 1024) :
    dot_S512x1024_S512x1024_S512x512_1_1_0_0_n_n.rhsIdx (ix2 i j) ((contrEquiv1 dot_S512x1024_S512x1024_S512x512_1_1_0_0_n_n 1024 rfl rfl).symm k) = ix2 j k :=
  funext fun a => Fin.ext (by
    match a with
    | ⟨0, _⟩ => exact sc_rhs_0 _ _
    | ⟨1, _⟩ => exact (sc_rhs_1 _ _).trans (contrEquiv1_symm_val dot_S512x1024_S512x1024_S512x512_1_1_0_0_n_n 1024 rfl rfl k))

/-- The body's score matrix at (i, j) is the inner product of row `i` of the first block's matrix with row `j` of the
    second's. -/
theorem score_at (x0 x1 : Vec Ideal S1x512x1024 .f32) (i j : Fin 512) :
    k0_pay4 (F := Ideal) x0 x1 (ix2 i j) = score (slab x0 (0 : Fin 1)) (slab x1 (0 : Fin 1)) i j := by
  unfold k0_pay4
  exact matmul_zero_single dot_S512x1024_S512x1024_S512x512_1_1_0_0_n_n 1024 rfl rfl _ _ (ix2 i j)
    (fun k => slab x0 (0 : Fin 1) i k) (fun k => slab x1 (0 : Fin 1) j k)
    (fun k => by rw [score_lhs i j k]; exact left_at x0 i k)
    (fun k => by rw [score_rhs i j k]; exact right_at x1 j k)

/-! ## Along the rows: the body's values named, then read -/

/-- The body's row maxima: the maximum along each row from −∞, taken once more against −∞. -/
def kRowMax (x0 x1 : Vec Ideal S1x512x1024 .f32) : FVec Ideal S512 .f32 :=
  maximumf (broadcast S512 (Scalar.ofBits .f32 0xFF800000#32))
    (multiReduction .maximumf [1] S512 (k0_pay4 x0 x1) 0xFF800000#32 reduces_S512x512_S512 (.inl rfl) rfl)

/-- The body's exponentials of the scores less their row's maximum (kept as a column, spread along the row). -/
def kRowExp (x0 x1 : Vec Ideal S1x512x1024 .f32) : FVec Ideal S512x512 .f32 :=
  exp (subf (k0_pay4 x0 x1)
    (broadcastTo S512x512 (shapeCast S512x1 (kRowMax x0 x1) shapeCasts_S512_S512x1) broadcasts_S512x1_S512x512))

/-- The body's row weights: each exponential over its row's sum (kept as a column, spread along the row). -/
def kRowSoft (x0 x1 : Vec Ideal S1x512x1024 .f32) : FVec Ideal S512x512 .f32 :=
  divf (kRowExp x0 x1)
    (broadcastTo S512x512 (shapeCast S512x1
      (multiReduction .add [1] S512 (kRowExp x0 x1) 0x00000000#32 reduces_S512x512_S512 (.inl rfl) rfl)
      shapeCasts_S512_S512x1) broadcasts_S512x1_S512x512)

/-- The payload stored to the first output block is the row weights times the second operand, with the unit axis put back. -/
theorem pay6_eq (x0 x1 : Vec Ideal S1x512x1024 .f32) :
    k0_pay6 (F := Ideal) x0 x1
      = shapeCast S1x512x1024 (matmul dot_S512x512_S512x1024_S512x1024_1_0_0_1_n_n none
          (truncf .bf16 (kRowSoft x0 x1) bitsLt_bf16_f32) (k0_pay3 x1) (constant S512x1024 .f32 0x00000000#32))
          shapeCasts_S512x1024_S1x512x1024 := rfl

theorem kRowMax_at (x0 x1 : Vec Ideal S1x512x1024 .f32) (i : Fin 512) : kRowMax x0 x1 (ix1 i) = rowMax (slab x0 (0 : Fin 1)) (slab x1 (0 : Fin 1)) i := by
  unfold kRowMax rowMax
  show max ninf (multiReduction .maximumf [1] S512 (k0_pay4 x0 x1) 0xFF800000#32 reduces_S512x512_S512 (.inl rfl) rfl (ix1 i)) = _
  refine congrArg (max ninf) ?_
  refine (rowMax_apply (k0_pay4 (F := Ideal) x0 x1) 0xFF800000#32 reduces_S512x512_S512 (.inl rfl) rfl i).trans ?_
  exact congrArg (fun f => Finset.fold max ninf f (Finset.univ : Finset (Fin 512))) (funext fun j => score_at x0 x1 i j)

theorem kRowExp_at (x0 x1 : Vec Ideal S1x512x1024 .f32) (i j : Fin 512) : kRowExp x0 x1 (ix2 i j) = rowExp (slab x0 (0 : Fin 1)) (slab x1 (0 : Fin 1)) i j := by
  have e1 := score_at x0 x1 i j
  have e2 : broadcastTo S512x512 (shapeCast S512x1 (kRowMax x0 x1) shapeCasts_S512_S512x1) broadcasts_S512x1_S512x512 (ix2 i j)
      = rowMax (slab x0 (0 : Fin 1)) (slab x1 (0 : Fin 1)) i :=
    (column_spread_apply (kRowMax x0 x1) shapeCasts_S512_S512x1 broadcasts_S512x1_S512x512 i j).trans (kRowMax_at x0 x1 i)
  unfold kRowExp rowExp
  show Ideal.exp (k0_pay4 x0 x1 (ix2 i j) - _) = _
  rw [e1, e2]

theorem kRowSum_at (x0 x1 : Vec Ideal S1x512x1024 .f32) (i : Fin 512) :
    multiReduction .add [1] S512 (kRowExp x0 x1) 0x00000000#32 reduces_S512x512_S512 (.inl rfl) rfl (ix1 i)
      = ∑ j : Fin 512, rowExp (slab x0 (0 : Fin 1)) (slab x1 (0 : Fin 1)) i j :=
  (rowSum_apply (kRowExp x0 x1) 0x00000000#32 reduces_S512x512_S512 (.inl rfl) rfl i).trans
    (Finset.sum_congr rfl fun j _ => kRowExp_at x0 x1 i j)

theorem kRowSoft_at (x0 x1 : Vec Ideal S1x512x1024 .f32) (i j : Fin 512) : kRowSoft x0 x1 (ix2 i j) = rowSoft (slab x0 (0 : Fin 1)) (slab x1 (0 : Fin 1)) i j := by
  have e1 := kRowExp_at x0 x1 i j
  have e2 : broadcastTo S512x512 (shapeCast S512x1
        (multiReduction .add [1] S512 (kRowExp x0 x1) 0x00000000#32 reduces_S512x512_S512 (.inl rfl) rfl)
        shapeCasts_S512_S512x1) broadcasts_S512x1_S512x512 (ix2 i j)
      = ∑ j' : Fin 512, rowExp (slab x0 (0 : Fin 1)) (slab x1 (0 : Fin 1)) i j' :=
    (column_spread_apply _ shapeCasts_S512_S512x1 broadcasts_S512x1_S512x512 i j).trans (kRowSum_at x0 x1 i)
  unfold kRowSoft rowSoft
  show Ideal.div (kRowExp x0 x1 (ix2 i j)) _ = _
  rw [e1, e2]

/-! ### The first result's product: the weights' column axis against the second operand's row axis -/

theorem ra_lhs_0 (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl

theorem ra_lhs_1 (j : S512x1024.Idx) (q : dot_S512x512_S512x1024_S512x1024_1_0_0_1_n_n.contr.Idx) :
    (dot_S512x512_S512x1024_S512x1024_1_0_0_1_n_n.lhsIdx j q 1).val = (q ⟨0, by decide⟩).val :=
  dot_S512x512_S512x1024_S512x1024_1_0_0_1_n_n.lhsIdx_val_of_single rfl j q

theorem ra_rhs_0 (j : S512x1024.Idx) (q : dot_S512x512_S512x1024_S512x1024_1_0_0_1_n_n.contr.Idx) :
    (dot_S512x512_S512x1024_S512x1024_1_0_0_1_n_n.rhsIdx j q 0).val = (q ⟨0, by decide⟩).val :=
  dot_S512x512_S512x1024_S512x1024_1_0_0_1_n_n.rhsIdx_val_of_single rfl j q

theorem ra_rhs_1 (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- Where the first result at (i, d) reads the weights at contraction position `k`: (i, k). -/
theorem outA_lhs (i : Fin 512) (d : Fin 1024) (k : Fin 512) :
    dot_S512x512_S512x1024_S512x1024_1_0_0_1_n_n.lhsIdx (ix2 i d) ((contrEquiv1 dot_S512x512_S512x1024_S512x1024_1_0_0_1_n_n 512 rfl rfl).symm k) = ix2 i k :=
  funext fun a => Fin.ext (by
    match a with
    | ⟨0, _⟩ => exact ra_lhs_0 _ _
    | ⟨1, _⟩ => exact (ra_lhs_1 _ _).trans (contrEquiv1_symm_val dot_S512x512_S512x1024_S512x1024_1_0_0_1_n_n 512 rfl rfl k))

/-- Where it reads the second operand: (k, d). -/
theorem outA_rhs (i : Fin 512) (d : Fin 1024) (k : Fin 512) :
    dot_S512x512_S512x1024_S512x1024_1_0_0_1_n_n.rhsIdx (ix2 i d) ((contrEquiv1 dot_S512x512_S512x1024_S512x1024_1_0_0_1_n_n 512 rfl rfl).symm k) = ix2 k d :=
  funext fun a => Fin.ext (by
    match a with
    | ⟨0, _⟩ => exact (ra_rhs_0 _ _).trans (contrEquiv1_symm_val dot_S512x512_S512x1024_S512x1024_1_0_0_1_n_n 512 rfl rfl k)
    | ⟨1, _⟩ => exact ra_rhs_1 _ _)

/-- The payload stored to the first output block, at (u, i, d): row `i` of the first result of the blocks' matrices. -/
theorem pay6_at (x0 x1 : Vec Ideal S1x512x1024 .f32) (u : Fin 1) (i : Fin 512) (d : Fin 1024) :
    k0_pay6 (F := Ideal) x0 x1 (ix3 u i d) = outA (slab x0 (0 : Fin 1)) (slab x1 (0 : Fin 1)) i d := by
  rw [pay6_eq]
  refine (shapeCast_ab_1ab_apply _ shapeCasts_S512x1024_S1x512x1024 u i d).trans ?_
  unfold outA
  exact matmul_zero_single dot_S512x512_S512x1024_S512x1024_1_0_0_1_n_n 512 rfl rfl _ _ (ix2 i d)
    (fun k => rowSoft (slab x0 (0 : Fin 1)) (slab x1 (0 : Fin 1)) i k) (fun k => slab x1 (0 : Fin 1) k d)
    (fun k => by rw [outA_lhs i d k]; exact kRowSoft_at x0 x1 i k)
    (fun k => by rw [outA_rhs i d k]; exact right_at x1 k d)

/-! ## Along the columns: the body's values named, then read -/

/-- The body's column maxima: the maximum down each column from −∞, taken once more against −∞. -/
def kColMax (x0 x1 : Vec Ideal S1x512x1024 .f32) : FVec Ideal S512 .f32 :=
  maximumf (broadcast S512 (Scalar.ofBits .f32 0xFF800000#32))
    (multiReduction .maximumf [0] S512 (k0_pay4 x0 x1) 0xFF800000#32 reduces_S512x512_S512_2 (.inl rfl) rfl)

/-- The body's exponentials of the scores less their column's maximum (kept as a row, spread down the column). -/
def kColExp (x0 x1 : Vec Ideal S1x512x1024 .f32) : FVec Ideal S512x512 .f32 :=
  exp (subf (k0_pay4 x0 x1)
    (broadcastTo S512x512 (shapeCast S1x512 (kColMax x0 x1) shapeCasts_S512_S1x512) broadcasts_S1x512_S512x512))

/-- The body's column weights: each exponential over its column's sum (kept as a row, spread down the column). -/
def kColSoft (x0 x1 : Vec Ideal S1x512x1024 .f32) : FVec Ideal S512x512 .f32 :=
  divf (kColExp x0 x1)
    (broadcastTo S512x512 (shapeCast S1x512
      (multiReduction .add [0] S512 (kColExp x0 x1) 0x00000000#32 reduces_S512x512_S512_2 (.inl rfl) rfl)
      shapeCasts_S512_S1x512) broadcasts_S1x512_S512x512)

/-- The payload stored to the second output block is the column weights, contracted along their rows with the first
    operand, with the unit axis put back. -/
theorem pay5_eq (x0 x1 : Vec Ideal S1x512x1024 .f32) :
    k0_pay1 (F := Ideal) (k0_pay5 x0 x1)
      = shapeCast S1x512x1024 (matmul dot_S512x512_S512x1024_S512x1024_0_0_1_1_n_n none
          (truncf .bf16 (kColSoft x0 x1) bitsLt_bf16_f32) (k0_pay2 x0) (constant S512x1024 .f32 0x00000000#32))
          shapeCasts_S512x1024_S1x512x1024 := rfl

theorem kColMax_at (x0 x1 : Vec Ideal S1x512x1024 .f32) (j : Fin 512) : kColMax x0 x1 (ix1 j) = colMax (slab x0 (0 : Fin 1)) (slab x1 (0 : Fin 1)) j := by
  unfold kColMax colMax
  show max ninf (multiReduction .maximumf [0] S512 (k0_pay4 x0 x1) 0xFF800000#32 reduces_S512x512_S512_2 (.inl rfl) rfl (ix1 j)) = _
  refine congrArg (max ninf) ?_
  refine (colMax_apply (k0_pay4 (F := Ideal) x0 x1) 0xFF800000#32 reduces_S512x512_S512_2 (.inl rfl) rfl j).trans ?_
  exact congrArg (fun f => Finset.fold max ninf f (Finset.univ : Finset (Fin 512))) (funext fun i => score_at x0 x1 i j)

theorem kColExp_at (x0 x1 : Vec Ideal S1x512x1024 .f32) (i j : Fin 512) : kColExp x0 x1 (ix2 i j) = colExp (slab x0 (0 : Fin 1)) (slab x1 (0 : Fin 1)) i j := by
  have e1 := score_at x0 x1 i j
  have e2 : broadcastTo S512x512 (shapeCast S1x512 (kColMax x0 x1) shapeCasts_S512_S1x512) broadcasts_S1x512_S512x512 (ix2 i j)
      = colMax (slab x0 (0 : Fin 1)) (slab x1 (0 : Fin 1)) j :=
    (row_spread_apply (kColMax x0 x1) shapeCasts_S512_S1x512 broadcasts_S1x512_S512x512 i j).trans (kColMax_at x0 x1 j)
  unfold kColExp colExp
  show Ideal.exp (k0_pay4 x0 x1 (ix2 i j) - _) = _
  rw [e1, e2]

theorem kColSum_at (x0 x1 : Vec Ideal S1x512x1024 .f32) (j : Fin 512) :
    multiReduction .add [0] S512 (kColExp x0 x1) 0x00000000#32 reduces_S512x512_S512_2 (.inl rfl) rfl (ix1 j)
      = ∑ i : Fin 512, colExp (slab x0 (0 : Fin 1)) (slab x1 (0 : Fin 1)) i j :=
  (colSum_apply (kColExp x0 x1) 0x00000000#32 reduces_S512x512_S512_2 (.inl rfl) rfl j).trans
    (Finset.sum_congr rfl fun i _ => kColExp_at x0 x1 i j)

theorem kColSoft_at (x0 x1 : Vec Ideal S1x512x1024 .f32) (i j : Fin 512) : kColSoft x0 x1 (ix2 i j) = colSoft (slab x0 (0 : Fin 1)) (slab x1 (0 : Fin 1)) i j := by
  have e1 := kColExp_at x0 x1 i j
  have e2 : broadcastTo S512x512 (shapeCast S1x512
        (multiReduction .add [0] S512 (kColExp x0 x1) 0x00000000#32 reduces_S512x512_S512_2 (.inl rfl) rfl)
        shapeCasts_S512_S1x512) broadcasts_S1x512_S512x512 (ix2 i j)
      = ∑ i' : Fin 512, colExp (slab x0 (0 : Fin 1)) (slab x1 (0 : Fin 1)) i' j :=
    (row_spread_apply _ shapeCasts_S512_S1x512 broadcasts_S1x512_S512x512 i j).trans (kColSum_at x0 x1 j)
  unfold kColSoft colSoft
  show Ideal.div (kColExp x0 x1 (ix2 i j)) _ = _
  rw [e1, e2]

/-! ### The second result's product: the weights' ROW axis against the first operand's row axis -/

theorem cb_lhs_0 (j : S512x1024.Idx) (q : dot_S512x512_S512x1024_S512x1024_0_0_1_1_n_n.contr.Idx) :
    (dot_S512x512_S512x1024_S512x1024_0_0_1_1_n_n.lhsIdx j q 0).val = (q ⟨0, by decide⟩).val :=
  dot_S512x512_S512x1024_S512x1024_0_0_1_1_n_n.lhsIdx_val_of_single rfl j q

theorem cb_lhs_1 (j : S512x1024.Idx) (q : dot_S512x512_S512x1024_S512x1024_0_0_1_1_n_n.contr.Idx) :
    (dot_S512x512_S512x1024_S512x1024_0_0_1_1_n_n.lhsIdx j q 1).val = (j 0).val := by
  unfold DotDims.lhsIdx
  rw [dif_neg (show ¬(1 : Fin S512x512.rank) ∈ dot_S512x512_S512x1024_S512x1024_0_0_1_1_n_n.lhsBatch by decide),
    dif_pos (show (1 : Fin S512x512.rank) ∈ dot_S512x512_S512x1024_S512x1024_0_0_1_1_n_n.lhsNonContracting by decide)]
  rfl

theorem cb_rhs_0 (j : S512x1024.Idx) (q : dot_S512x512_S512x1024_S512x1024_0_0_1_1_n_n.contr.Idx) :
    (dot_S512x512_S512x1024_S512x1024_0_0_1_1_n_n.rhsIdx j q 0).val = (q ⟨0, by decide⟩).val :=
  dot_S512x512_S512x1024_S512x1024_0_0_1_1_n_n.rhsIdx_val_of_single rfl j q

theorem cb_rhs_1 (j : S512x1024.Idx) (q : dot_S512x512_S512x1024_S512x1024_0_0_1_1_n_n.contr.Idx) :
    (dot_S512x512_S512x1024_S512x1024_0_0_1_1_n_n.rhsIdx j q 1).val = (j 1).val := by
  unfold DotDims.rhsIdx
  rw [dif_neg (show ¬(1 : Fin S512x1024.rank) ∈ dot_S512x512_S512x1024_S512x1024_0_0_1_1_n_n.rhsBatch by decide),
    dif_pos (show (1 : Fin S512x1024.rank) ∈ dot_S512x512_S512x1024_S512x1024_0_0_1_1_n_n.rhsNonContracting by decide)]
  rfl

/-- Where the second result at (j, d) reads the weights at contraction position `k`: (k, j). -/
theorem outB_lhs (j : Fin 512) (d : Fin 1024) (k : Fin 512) :
    dot_S512x512_S512x1024_S512x1024_0_0_1_1_n_n.lhsIdx (ix2 j d) ((contrEquiv1 dot_S512x512_S512x1024_S512x1024_0_0_1_1_n_n 512 rfl rfl).symm k) = ix2 k j :=
  funext fun a => Fin.ext (by
    match a with
    | ⟨0, _⟩ => exact (cb_lhs_0 _ _).trans (contrEquiv1_symm_val dot_S512x512_S512x1024_S512x1024_0_0_1_1_n_n 512 rfl rfl k)
    | ⟨1, _⟩ => exact cb_lhs_1 _ _)

/-- Where it reads the first operand: (k, d). -/
theorem outB_rhs (j : Fin 512) (d : Fin 1024) (k : Fin 512) :
    dot_S512x512_S512x1024_S512x1024_0_0_1_1_n_n.rhsIdx (ix2 j d) ((contrEquiv1 dot_S512x512_S512x1024_S512x1024_0_0_1_1_n_n 512 rfl rfl).symm k) = ix2 k d :=
  funext fun a => Fin.ext (by
    match a with
    | ⟨0, _⟩ => exact (cb_rhs_0 _ _).trans (contrEquiv1_symm_val dot_S512x512_S512x1024_S512x1024_0_0_1_1_n_n 512 rfl rfl k)
    | ⟨1, _⟩ => exact cb_rhs_1 _ _)

/-- The payload stored to the second output block, at (u, j, d): row `j` of the second result of the blocks' matrices. -/
theorem pay5_at (x0 x1 : Vec Ideal S1x512x1024 .f32) (u : Fin 1) (j : Fin 512) (d : Fin 1024) :
    k0_pay1 (F := Ideal) (k0_pay5 x0 x1) (ix3 u j d) = outB (slab x0 (0 : Fin 1)) (slab x1 (0 : Fin 1)) j d := by
  rw [pay5_eq]
  refine (shapeCast_ab_1ab_apply _ shapeCasts_S512x1024_S1x512x1024 u j d).trans ?_
  unfold outB
  exact matmul_zero_single dot_S512x512_S512x1024_S512x1024_0_0_1_1_n_n 512 rfl rfl _ _ (ix2 j d)
    (fun k => colSoft (slab x0 (0 : Fin 1)) (slab x1 (0 : Fin 1)) k j) (fun k => slab x0 (0 : Fin 1) k d)
    (fun k => by rw [outB_lhs j d k]; exact kColSoft_at x0 x1 k j)
    (fun k => by rw [outB_rhs j d k]; exact left_at x0 k d)

end Cert.KernelIdeal.Block

end
-- ==== Proof.Blocks.lean ====
/-
  From blocks to whole arrays: what the kernel's run leaves in its two result arrays.

  The grid has one point per batch. At point `t` every window's block is matrix `t` of its stack (block index
  (t, 0, 0), block extents [1, 512, 1024]); the body turns the two input blocks into the two-sided attention of their
  matrices, and the pipeline writes the two output blocks back to matrix `t` of the two result stacks. Distinct points
  write distinct matrices and together they write all of them, so each result array ends as the corresponding whole
  result of the two-sided attention of the argument stacks, batch by batch.
-/
import proofs.«118593_j85847806313068_1_alg».proof.Proof.Gen.KernelIdeal.Value
import proofs.«118593_j85847806313068_1_alg».proof.Proof.KernelBlock

noncomputable section

/-! ## A block's attention inside the whole result -/

namespace Cert.Attend

open Idealize.ShloMosaic Idealize.ShloMosaic.ValueIdx

/-- If two [1, 512, 1024] blocks are the matrices of two stacks at the batch coordinate of the array index `i`, the
    first result of the blocks' matrices at (r, d) — the other two coordinates of `i` — is the whole first result at `i`. -/
theorem wholeA_of_block (X Y : (⟨3, ![32, 512, 1024]⟩ : Shape).Idx → EReal) (x y : (⟨3, ![1, 512, 1024]⟩ : Shape).Idx → EReal)
    (i : (⟨3, ![32, 512, 1024]⟩ : Shape).Idx) (r : Fin 512) (d : Fin 1024)
    (hx : ∀ (p : Fin 512) (k : Fin 1024), x (ix3 (0 : Fin 1) p k) = X (ix3 (i 0) p k))
    (hy : ∀ (p : Fin 512) (k : Fin 1024), y (ix3 (0 : Fin 1) p k) = Y (ix3 (i 0) p k))
    (hr : i 1 = r) (hd : i 2 = d) :
    outA (slab x (0 : Fin 1)) (slab y (0 : Fin 1)) r d = wholeA X Y i := by
  have ex : slab x (0 : Fin 1) = slab X (i 0) := funext fun p => funext fun k => hx p k
  have ey : slab y (0 : Fin 1) = slab Y (i 0) := funext fun p => funext fun k => hy p k
  subst hr hd
  rw [ex, ey]
  rfl

/-- The same for the second result. -/
theorem wholeB_of_block (X Y : (⟨3, ![32, 512, 1024]⟩ : Shape).Idx → EReal) (x y : (⟨3, ![1, 512, 1024]⟩ : Shape).Idx → EReal)
    (i : (⟨3, ![32, 512, 1024]⟩ : Shape).Idx) (r : Fin 512) (d : Fin 1024)
    (hx : ∀ (p : Fin 512) (k : Fin 1024), x (ix3 (0 : Fin 1) p k) = X (ix3 (i 0) p k))
    (hy : ∀ (p : Fin 512) (k : Fin 1024), y (ix3 (0 : Fin 1) p k) = Y (ix3 (i 0) p k))
    (hr : i 1 = r) (hd : i 2 = d) :
    outB (slab x (0 : Fin 1)) (slab y (0 : Fin 1)) r d = wholeB X Y i := by
  have ex : slab x (0 : Fin 1) = slab X (i 0) := funext fun p => funext fun k => hx p k
  have ey : slab y (0 : Fin 1) = slab Y (i 0) := funext fun p => funext fun k => hy p k
  subst hr hd
  rw [ex, ey]
  rfl

end Cert.Attend

namespace Cert.KernelIdeal.Whole

open Cert.KernelIdeal Cert.KernelIdeal.Gen Idealize.ShloMosaic Idealize.ShloMosaic.TcCoe Idealize.SL.Sem
open Idealize.ShloMosaic.ValueIdx Cert.Attend Cert.KernelIdeal.Block
open Idealize.ShloMosaic.Pipeline (Dat)

/-! ## The body's two stored values at an entry of the block -/

theorem firstStored_entry (x0 x1 : Vec Ideal S1x512x1024 .f32) (y : S1x512x1024.Idx) :
    k0_pay6 (F := Ideal) x0 x1 y = outA (slab x0 (0 : Fin 1)) (slab x1 (0 : Fin 1)) (y 1) (y 2) := by
  obtain ⟨u, r, d, rfl⟩ : ∃ (u : Fin 1) (r : Fin 512) (d : Fin 1024), y = ix3 u r d := ⟨y 0, y 1, y 2, eq_ix3 y⟩
  exact pay6_at x0 x1 u r d

theorem secondStored_entry (x0 x1 : Vec Ideal S1x512x1024 .f32) (y : S1x512x1024.Idx) :
    k0_pay1 (F := Ideal) (k0_pay5 x0 x1) y = outB (slab x0 (0 : Fin 1)) (slab x1 (0 : Fin 1)) (y 1) (y 2) := by
  obtain ⟨u, r, d, rfl⟩ : ∃ (u : Fin 1) (r : Fin 512) (d : Fin 1024), y = ix3 u r d := ⟨y 0, y 1, y 2, eq_ix3 y⟩
  exact pay5_at x0 x1 u r d

/-! ## The index maps, decided over the grid -/

theorem hz : (![0, 0, 0] : Fin 3 → Nat) = fun _ => 0 := funext fun a => by fin_cases a <;> rfl

/-- At every point the four windows sit on the same batch and at the origin of the other two axes. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_3.index t (0 : Fin 3) = win0_2.index t (0 : Fin 3) ∧ win0_3.index t (1 : Fin 3) = 0 ∧ win0_3.index t (2 : Fin 3) = 0
    ∧ win0_2.index t (0 : Fin 3) ≤ 31 ∧ win0_2.index t (1 : Fin 3) = 0 ∧ win0_2.index t (2 : Fin 3) = 0 :=
  (by decide +kernel : ∀ t : Fin grid0.N, _)

/-- Every batch is some point's, for either output window. -/
theorem idx_ontoA : ∀ q : Fin 32, ∃ t : Fin cfg0.N, win0_2.index t = ![q.val, 0, 0] :=
  (by decide +kernel : ∀ q : Fin 32, ∃ t : Fin grid0.N, win0_2.index t = ![q.val, 0, 0])
theorem idx_ontoB : ∀ q : Fin 32, ∃ t : Fin cfg0.N, win0_3.index t = ![q.val, 0, 0] :=
  (by decide +kernel : ∀ q : Fin 32, ∃ t : Fin grid0.N, win0_3.index t = ![q.val, 0, 0])

variable (m : (ℓ : Loc nD τ sig) → Buf (Elt Ideal) ℓ) (ρ : Dev nD → PrngReg)

/-! ## Output window 2: the first result -/

/-- WHAT POINT `t` WRITES BACK to the first result is block `t` of the first result of the two-sided attention of the
    argument stacks as the region finds them. -/
theorem flushedA_eq (c : Dev nD) (t : Fin cfg0.N) :
    (dats m 0 c).flushed 2 t
      = ((cfg0.win 2).blk t).view.read (Elt Ideal) (wholeA (V m c main_arg0) (V m c main_arg1)) := by
  rw [Cert.KernelIdeal.Value.flushed2]
  unfold out0_2
  rw [View.canon_unit_zero hz]
  simp only [View.ld_unit_zero (S := S1x512x1024) hz]
  obtain ⟨a0, a1, a2, b0, b1, b2, c0, c1, c2, d0, d1, d2⟩ := idx_facts t
  funext y
  show k0_pay6 (F := Ideal) (iblk m c 0 t) (iblk m c 1 t) y
    = wholeA (V m c main_arg0) (V m c main_arg1) (((cfg0.win 2).blk t).view.emb y)
  have hy0 : (y 0).val < 1 := (y 0).isLt
  refine (firstStored_entry (iblk m c 0 t) (iblk m c 1 t) y).trans ?_
  refine wholeA_of_block (V m c main_arg0) (V m c main_arg1) (iblk m c 0 t) (iblk m c 1 t)
    (((cfg0.win 2).blk t).view.emb y) (y 1) (y 2) (fun r k => ?_) (fun r k => ?_) (Fin.ext ?_) (Fin.ext ?_)
  · show V m c main_arg0 (((cfg0.win 0).blk t).view.emb (ix3 (0 : Fin 1) r k))
      = V m c main_arg0 (ix3 ((((cfg0.win 2).blk t).view.emb y) 0) r k)
    refine congrArg (V m c main_arg0) (funext fun a => Fin.ext ?_)
    match a with
    | ⟨0, _⟩ => show win0_0.index t (0 : Fin 3) * 1 + 1 * 0 = win0_2.index t (0 : Fin 3) * 1 + 1 * (y 0).val; omega
    | ⟨1, _⟩ => show win0_0.index t (1 : Fin 3) * 512 + 1 * r.val = r.val; omega
    | ⟨2, _⟩ => show win0_0.index t (2 : Fin 3) * 1024 + 1 * k.val = k.val; omega
  · show V m c main_arg1 (((cfg0.win 1).blk t).view.emb (ix3 (0 : Fin 1) r k))
      = V m c main_arg1 (ix3 ((((cfg0.win 2).blk t).view.emb y) 0) r k)
    refine congrArg (V m c main_arg1) (funext fun a => Fin.ext ?_)
    match a with
    | ⟨0, _⟩ => show win0_1.index t (0 : Fin 3) * 1 + 1 * 0 = win0_2.index t (0 : Fin 3) * 1 + 1 * (y 0).val; omega
    | ⟨1, _⟩ => show win0_1.index t (1 : Fin 3) * 512 + 1 * r.val = r.val; omega
    | ⟨2, _⟩ => show win0_1.index t (2 : Fin 3) * 1024 + 1 * k.val = k.val; omega
  · show win0_2.index t (1 : Fin 3) * 512 + 1 * (y 1).val = (y 1).val; omega
  · show win0_2.index t (2 : Fin 3) * 1024 + 1 * (y 2).val = (y 2).val; omega

/-- An index of the array is in point `t`'s block iff each coordinate is in the block's range on its axis. -/
theorem mem_blkA (t : Fin cfg0.N) (i : S32x512x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v0_0).slice (win0_2.rect t)).set ↔ _
  rw [View.set_slice_whole, Rect.mem_set_unit]
  exact Iff.rfl

/-- EVERY index of the array is in some point's block: the point of its batch coordinate. -/
theorem coverA (i : S32x512x1024.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 1024 := (i 2).isLt
  obtain ⟨t, ht⟩ := idx_ontoA ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blkA]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- THE ARRAY after the run is the first result of the two-sided attention of the argument stacks. -/
theorem finalA (c : Dev nD) :
    (dats m 0 c).arrAt 2 cfg0.N = wholeA (m ((c : Thread nD τ).loc main_arg0)) (m ((c : Thread nD τ).loc main_arg1)) :=
  (dats m 0 c).arrAt_eq_of_cover 2 (wholeA (V m c main_arg0) (V m c main_arg1)) (fun t _ => flushedA_eq m c t) coverA

/-! ## Output window 3: the second result -/

/-- WHAT POINT `t` WRITES BACK to the second result is block `t` of the second result of the two-sided attention of the
    argument stacks as the region finds them. -/
theorem flushedB_eq (c : Dev nD) (t : Fin cfg0.N) :
    (dats m 0 c).flushed 3 t
      = ((cfg0.win 3).blk t).view.read (Elt Ideal) (wholeB (V m c main_arg0) (V m c main_arg1)) := by
  rw [Cert.KernelIdeal.Value.flushed3]
  unfold out0_3
  rw [View.canon_unit_zero hz]
  simp only [View.ld_unit_zero (S := S1x512x1024) hz]
  obtain ⟨a0, a1, a2, b0, b1, b2, c0, c1, c2, d0, d1, d2⟩ := idx_facts t
  funext y
  show k0_pay1 (F := Ideal) (k0_pay5 (iblk m c 0 t) (iblk m c 1 t)) y
    = wholeB (V m c main_arg0) (V m c main_arg1) (((cfg0.win 3).blk t).view.emb y)
  have hy0 : (y 0).val < 1 := (y 0).isLt
  refine (secondStored_entry (iblk m c 0 t) (iblk m c 1 t) y).trans ?_
  refine wholeB_of_block (V m c main_arg0) (V m c main_arg1) (iblk m c 0 t) (iblk m c 1 t)
    (((cfg0.win 3).blk t).view.emb y) (y 1) (y 2) (fun r k => ?_) (fun r k => ?_) (Fin.ext ?_) (Fin.ext ?_)
  · show V m c main_arg0 (((cfg0.win 0).blk t).view.emb (ix3 (0 : Fin 1) r k))
      = V m c main_arg0 (ix3 ((((cfg0.win 3).blk t).view.emb y) 0) r k)
    refine congrArg (V m c main_arg0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 512 + 1 * r.val = r.val; omega
    | ⟨2, _⟩ => show win0_0.index t (2 : Fin 3) * 1024 + 1 * k.val = k.val; omega
  · show V m c main_arg1 (((cfg0.win 1).blk t).view.emb (ix3 (0 : Fin 1) r k))
      = V m c main_arg1 (ix3 ((((cfg0.win 3).blk t).view.emb y) 0) r k)
    refine congrArg (V m c main_arg1) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 512 + 1 * r.val = r.val; omega
    | ⟨2, _⟩ => show win0_1.index t (2 : Fin 3) * 1024 + 1 * k.val = k.val; omega
  · show win0_3.index t (1 : Fin 3) * 512 + 1 * (y 1).val = (y 1).val; omega
  · show win0_3.index t (2 : Fin 3) * 1024 + 1 * (y 2).val = (y 2).val; omega

/-- An index of the array is in point `t`'s block iff each coordinate is in the block's range on its axis. -/
theorem mem_blkB (t : Fin cfg0.N) (i : S32x512x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v0_1).slice (win0_3.rect t)).set ↔ _
  rw [View.set_slice_whole, Rect.mem_set_unit]
  exact Iff.rfl

/-- EVERY index of the array is in some point's block: the point of its batch coordinate. -/
theorem coverB (i : S32x512x1024.Idx) :
    ∃ t : Fin cfg0.N, (cfg0.win 3).flush t = true ∧ i ∈ ((cfg0.win 3).blk t).view.set := by
  have hi0 : (i 0).val < 32 := (i 0).isLt
  have hi1 : (i 1).val < 512 := (i 1).isLt
  have hi2 : (i 2).val < 1024 := (i 2).isLt
  obtain ⟨t, ht⟩ := idx_ontoB ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blkB]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- THE ARRAY after the run is the second result of the two-sided attention of the argument stacks. -/
theorem finalB (c : Dev nD) :
    (dats m 0 c).arrAt 3 cfg0.N = wholeB (m ((c : Thread nD τ).loc main_arg0)) (m ((c : Thread nD τ).loc main_arg1)) :=
  (dats m 0 c).arrAt_eq_of_cover 3 (wholeB (V m c main_arg0) (V m c main_arg1)) (fun t _ => flushedB_eq m c t) coverB

/-! ## The run, read -/

/-- Every weakly fair execution of the kernel's program ends with the two result arrays at the two whole results of the
    two-sided attention of the argument stacks, the arguments unchanged. -/
theorem run : θ_run defs (onTc (τ := τ) (main (F := Ideal))) ⟨m, fun _ => 0, ρ⟩ fun r => ∀ c : Dev nD,
      r.2.mem ((c : Thread nD τ).loc main_v0_0) = wholeA (m ((c : Thread nD τ).loc main_arg0)) (m ((c : Thread nD τ).loc main_arg1))
      ∧ r.2.mem ((c : Thread nD τ).loc main_v0_1) = wholeB (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalA m c), (h c).2.1.trans (finalB m c), (h c).2.2.1, (h c).2.2.2⟩)
    (Cert.KernelIdeal.Value.run_blocks m ρ)

end Cert.KernelIdeal.Whole

end
-- ==== Proof.RefRead.lean ====
/-
  The reference, read entry by entry on the extended reals.

  The reference works on the whole stacks at once: a batched product gives all the scores, the maxima and sums run
  along one axis of the [32, 512, 512] score array and are spread back over it, and two batched products give the
  results. Read at an entry of batch `t`, every stage depends on the `t`-th matrices of the two stacks alone, and is
  the corresponding quantity of their two-sided attention: the batch coordinate rides along unchanged. The two maxima
  are the only stages read here from the definition of the host's reduction (a fold of `max` over the reduced axis);
  the others chain the generated read-at-an-index lemmas.
-/
import proofs.«118593_j85847806313068_1_alg».proof.Proof.Gen.ReferenceIdeal.Read
import proofs.«118593_j85847806313068_1_alg».proof.Proof.Attend
import proofs.«118593_j85847806313068_1_alg».proof.Proof.LibAxisReads

noncomputable section

namespace Cert.ReferenceIdeal.RefValue

open Cert.ReferenceIdeal Cert.ReferenceIdeal.Gen Cert.ReferenceIdeal.Read Idealize.ShloMosaic Idealize.ShloMosaic.ValueIdx
open Cert.Attend Cert.AxisReads

/-! ## The scores -/

/-- The batched product at (t, i, j) is the inner product of row `i` of the first stack's `t`-th matrix with row `j` of
    the second's. -/
theorem score_at (x0 x1 : (⟨S32x512x1024, .f32⟩ : BufTy).Contents (Elt Ideal)) (t : Fin 32) (i j : Fin 512) :
    val_main_v0 (F := Ideal) x0 x1 (ix3 t i j) = score (slab x0 t) (slab x1 t) i j := by
  unfold score slab
  rw [val_main_v0_apply]
  refine Finset.sum_congr rfl fun k _ => ?_
  have el : lidx_main_v0 (ix3 t i j) k = ix3 t i k := funext fun a => Fin.ext (by match a with | ⟨0, _⟩ => rfl | ⟨1, _⟩ => rfl | ⟨2, _⟩ => rfl)
  have er : ridx_main_v0 (ix3 t i j) k = ix3 t j k := funext fun a => Fin.ext (by match a with | ⟨0, _⟩ => rfl | ⟨1, _⟩ => rfl | ⟨2, _⟩ => rfl)
  rw [el, er]

/-! ## Along the rows of the scores -/

/-- The host's maximum over the last axis, at (t, i): the fold of `max` from −∞ over row `i` of batch `t`'s scores. -/
theorem rowFold_at (x0 x1 : (⟨S32x512x1024, .f32⟩ : BufTy).Contents (Elt Ideal)) (t : Fin 32) (i : Fin 512) :
    val_main_v1 (F := Ideal) x0 x1 (ix2 t i)
      = (Finset.univ : Finset (Fin 512)).fold max ninf fun j => score (slab x0 t) (slab x1 t) i j := by
  unfold val_main_v1
  refine (hostMax3_last_apply (val_main_v0 (F := Ideal) x0 x1) (val_main_cst (F := Ideal))
    reducesTo_S32x512x512_S32x512_d2 h_S_ t i).trans ?_
  exact congrArg (fun f => Finset.fold max ninf f (Finset.univ : Finset (Fin 512)))
    (funext fun k => score_at x0 x1 t i k)

/-- Taken once more against −∞: the row's maximum. -/
theorem rowMax_at (x0 x1 : (⟨S32x512x1024, .f32⟩ : BufTy).Contents (Elt Ideal)) (t : Fin 32) (i : Fin 512) :
    val_main_v3 (F := Ideal) x0 x1 (ix2 t i) = rowMax (slab x0 t) (slab x1 t) i := by
  rw [val_main_v3_apply, val_main_v2_apply, val_main_cst_0_apply, rowFold_at]
  rfl

/-- The exponential of a score less its row's maximum (the maximum kept as a column and spread along the row). -/
theorem rowExp_at (x0 x1 : (⟨S32x512x1024, .f32⟩ : BufTy).Contents (Elt Ideal)) (t : Fin 32) (i j : Fin 512) :
    val_main_v7 (F := Ideal) x0 x1 (ix3 t i j) = rowExp (slab x0 t) (slab x1 t) i j := by
  have e : idx_main_v4 (idx_main_v5 (ix3 t i j)) = ix2 t i := funext fun a => Fin.ext (by match a with | ⟨0, _⟩ => rfl | ⟨1, _⟩ => rfl)
  rw [val_main_v7_apply, val_main_v6_apply, val_main_v5_apply, val_main_v4_apply, score_at, e, rowMax_at]
  rfl

/-- The sum of a row's exponentials (from the zero word, which is the real zero). -/
theorem rowSum_at (x0 x1 : (⟨S32x512x1024, .f32⟩ : BufTy).Contents (Elt Ideal)) (t : Fin 32) (i : Fin 512) :
    val_main_v8 (F := Ideal) x0 x1 (ix2 t i) = ∑ j : Fin 512, rowExp (slab x0 t) (slab x1 t) i j := by
  rw [val_main_v8_apply, val_main_cst_1_apply]
  show Ideal.ofBits .f32 0x00000000#32 + _ = _
  rw [Ideal.ofBits_zero_f32, zero_add]
  refine Finset.sum_congr rfl fun k _ => ?_
  have e : idx_main_v8 (ix2 t i) k = ix3 t i k := funext fun a => Fin.ext (by match a with | ⟨0, _⟩ => rfl | ⟨1, _⟩ => rfl | ⟨2, _⟩ => rfl)
  rw [e, rowExp_at]

/-- The row weights. -/
theorem rowSoft_at (x0 x1 : (⟨S32x512x1024, .f32⟩ : BufTy).Contents (Elt Ideal)) (t : Fin 32) (i j : Fin 512) :
    val_main_v11 (F := Ideal) x0 x1 (ix3 t i j) = rowSoft (slab x0 t) (slab x1 t) i j := by
  have e : idx_main_v9 (idx_main_v10 (ix3 t i j)) = ix2 t i := funext fun a => Fin.ext (by match a with | ⟨0, _⟩ => rfl | ⟨1, _⟩ => rfl)
  rw [val_main_v11_apply, val_main_v10_apply, val_main_v9_apply, rowExp_at, e, rowSum_at]
  rfl

/-- The first result at (t, i, d): the rows of the second stack's `t`-th matrix averaged with row `i`'s weights. -/
theorem outA_at (x0 x1 : (⟨S32x512x1024, .f32⟩ : BufTy).Contents (Elt Ideal)) (t : Fin 32) (i : Fin 512) (d : Fin 1024) :
    val_main_v23 (F := Ideal) x0 x1 (ix3 t i d) = outA (slab x0 t) (slab x1 t) i d := by
  unfold outA
  rw [val_main_v23_apply]
  refine Finset.sum_congr rfl fun k _ => ?_
  have el : lidx_main_v23 (ix3 t i d) k = ix3 t i k := funext fun a => Fin.ext (by match a with | ⟨0, _⟩ => rfl | ⟨1, _⟩ => rfl | ⟨2, _⟩ => rfl)
  have er : ridx_main_v23 (ix3 t i d) k = ix3 t k d := funext fun a => Fin.ext (by match a with | ⟨0, _⟩ => rfl | ⟨1, _⟩ => rfl | ⟨2, _⟩ => rfl)
  rw [el, er, rowSoft_at]
  rfl

/-! ## Along the columns of the scores -/

/-- The host's maximum over the middle axis, at (t, j): the fold of `max` from −∞ over column `j` of batch `t`'s scores. -/
theorem colFold_at (x0 x1 : (⟨S32x512x1024, .f32⟩ : BufTy).Contents (Elt Ideal)) (t : Fin 32) (j : Fin 512) :
    val_main_v12 (F := Ideal) x0 x1 (ix2 t j)
      = (Finset.univ : Finset (Fin 512)).fold max ninf fun i => score (slab x0 t) (slab x1 t) i j := by
  unfold val_main_v12
  refine (hostMax3_mid_apply (val_main_v0 (F := Ideal) x0 x1) (val_main_cst_2 (F := Ideal))
    reducesTo_S32x512x512_S32x512_d1 h_S_ t j).trans ?_
  exact congrArg (fun f => Finset.fold max ninf f (Finset.univ : Finset (Fin 512)))
    (funext fun k => score_at x0 x1 t k j)

/-- Taken once more against −∞: the column's maximum. -/
theorem colMax_at (x0 x1 : (⟨S32x512x1024, .f32⟩ : BufTy).Contents (Elt Ideal)) (t : Fin 32) (j : Fin 512) :
    val_main_v14 (F := Ideal) x0 x1 (ix2 t j) = colMax (slab x0 t) (slab x1 t) j := by
  rw [val_main_v14_apply, val_main_v13_apply, val_main_cst_3_apply, colFold_at]
  rfl

/-- The exponential of a score less its column's maximum (the maximum kept as a row and spread down the column). -/
theorem colExp_at (x0 x1 : (⟨S32x512x1024, .f32⟩ : BufTy).Contents (Elt Ideal)) (t : Fin 32) (i j : Fin 512) :
    val_main_v18 (F := Ideal) x0 x1 (ix3 t i j) = colExp (slab x0 t) (slab x1 t) i j := by
  have e : idx_main_v15 (idx_main_v16 (ix3 t i j)) = ix2 t j := funext fun a => Fin.ext (by match a with | ⟨0, _⟩ => rfl | ⟨1, _⟩ => rfl)
  rw [val_main_v18_apply, val_main_v17_apply, val_main_v16_apply, val_main_v15_apply, score_at, e, colMax_at]
  rfl

/-- The sum of a column's exponentials. -/
theorem colSum_at (x0 x1 : (⟨S32x512x1024, .f32⟩ : BufTy).Contents (Elt Ideal)) (t : Fin 32) (j : Fin 512) :
    val_main_v19 (F := Ideal) x0 x1 (ix2 t j) = ∑ i : Fin 512, colExp (slab x0 t) (slab x1 t) i j := by
  rw [val_main_v19_apply, val_main_cst_4_apply]
  show Ideal.ofBits .f32 0x00000000#32 + _ = _
  rw [Ideal.ofBits_zero_f32, zero_add]
  refine Finset.sum_congr rfl fun k _ => ?_
  have e : idx_main_v19 (ix2 t j) k = ix3 t k j := funext fun a => Fin.ext (by match a with | ⟨0, _⟩ => rfl | ⟨1, _⟩ => rfl | ⟨2, _⟩ => rfl)
  rw [e, colExp_at]

/-- The column weights. -/
theorem colSoft_at (x0 x1 : (⟨S32x512x1024, .f32⟩ : BufTy).Contents (Elt Ideal)) (t : Fin 32) (i j : Fin 512) :
    val_main_v22 (F := Ideal) x0 x1 (ix3 t i j) = colSoft (slab x0 t) (slab x1 t) i j := by
  have e : idx_main_v20 (idx_main_v21 (ix3 t i j)) = ix2 t j := funext fun a => Fin.ext (by match a with | ⟨0, _⟩ => rfl | ⟨1, _⟩ => rfl)
  rw [val_main_v22_apply, val_main_v21_apply, val_main_v20_apply, colExp_at, e, colSum_at]
  rfl

/-- The second result at (t, j, d): the rows of the first stack's `t`-th matrix averaged with column `j`'s weights. -/
theorem outB_at (x0 x1 : (⟨S32x512x1024, .f32⟩ : BufTy).Contents (Elt Ideal)) (t : Fin 32) (j : Fin 512) (d : Fin 1024) :
    val_main_v24 (F := Ideal) x0 x1 (ix3 t j d) = outB (slab x0 t) (slab x1 t) j d := by
  unfold outB
  rw [val_main_v24_apply]
  refine Finset.sum_congr rfl fun k _ => ?_
  have el : lidx_main_v24 (ix3 t j d) k = ix3 t k j := funext fun a => Fin.ext (by match a with | ⟨0, _⟩ => rfl | ⟨1, _⟩ => rfl | ⟨2, _⟩ => rfl)
  have er : ridx_main_v24 (ix3 t j d) k = ix3 t k d := funext fun a => Fin.ext (by match a with | ⟨0, _⟩ => rfl | ⟨1, _⟩ => rfl | ⟨2, _⟩ => rfl)
  rw [el, er, colSoft_at]
  rfl

/-! ## The two whole results -/

/-- The reference's first result is the first result of the two-sided attention, batch by batch. -/
theorem resultA_eq (x0 x1 : (⟨S32x512x1024, .f32⟩ : BufTy).Contents (Elt Ideal)) : val_main_v23 (F := Ideal) x0 x1 = wholeA x0 x1 := by
  funext i
  obtain ⟨t, r, d, rfl⟩ : ∃ (t : Fin 32) (r : Fin 512) (d : Fin 1024), i = ix3 t r d := ⟨i 0, i 1, i 2, eq_ix3 i⟩
  exact outA_at x0 x1 t r d

/-- The reference's second result is the second result of the two-sided attention, batch by batch. -/
theorem resultB_eq (x0 x1 : (⟨S32x512x1024, .f32⟩ : BufTy).Contents (Elt Ideal)) : val_main_v24 (F := Ideal) x0 x1 = wholeB x0 x1 := by
  funext i
  obtain ⟨t, r, d, rfl⟩ : ∃ (t : Fin 32) (r : Fin 512) (d : Fin 1024), i = ix3 t r d := ⟨i 0, i 1, i 2, eq_ix3 i⟩
  exact outB_at x0 x1 t r d

end Cert.ReferenceIdeal.RefValue

end
-- ==== Proof.lean ====
/-
  The certificate of a two-sided attention kernel against its reference, on the extended reals.

  Both programs take two stacks of 32 matrices (512 rows, 1024 columns). For each batch they score every row of the
  first matrix against every row of the second by an inner product, normalise the scores by a soft maximum along the
  rows and, separately, along the columns, and average the rows of the second matrix with the row weights and the
  rows of the first with the column weights (`Cert.Attend`). The kernel does this one batch per grid point, on blocks,
  with matrix products into a zero accumulator and lane reductions; the reference does it on the whole stacks with
  batched products and host reductions. Read on the extended reals these are the same operations in the same order at
  every entry — a change of float format is the identity, a product into zero is the plain sum of products, a
  reduction is the fold or the sum over its axis — so the two results agree entry by entry for ALL inputs: the
  finiteness of the inputs is never used.

  * the kernel's stored values at an entry of a block: `Proof/KernelBlock.lean`;
  * the kernel's result arrays, from the blocks the grid points write: `Proof/Blocks.lean` (over the generated value leg);
  * the reference's stages at an entry: `Proof/RefRead.lean` (over the generated run and its read-at-an-index lemmas);
  * the three frames are the generated ones (the reference's is its generated run with the results dropped), and the
    idealization rewrote nothing, so `preserves` has nothing to say.
-/
import proofs.«118593_j85847806313068_1_alg».proof.Defs
import proofs.«118593_j85847806313068_1_alg».proof.Proof.Gen.Kernel
import proofs.«118593_j85847806313068_1_alg».proof.Proof.Gen.Kernel.Skeleton
import proofs.«118593_j85847806313068_1_alg».proof.Proof.Gen.Kernel.Launch
import proofs.«118593_j85847806313068_1_alg».proof.Proof.Gen.Kernel.Points
import proofs.«118593_j85847806313068_1_alg».proof.Proof.Gen.Kernel.Frame
import proofs.«118593_j85847806313068_1_alg».proof.Proof.Gen.KernelIdeal
import proofs.«118593_j85847806313068_1_alg».proof.Proof.Gen.KernelIdeal.Skeleton
import proofs.«118593_j85847806313068_1_alg».proof.Proof.Gen.KernelIdeal.Launch
import proofs.«118593_j85847806313068_1_alg».proof.Proof.Gen.KernelIdeal.Points
import proofs.«118593_j85847806313068_1_alg».proof.Proof.Gen.KernelIdeal.Frame
import proofs.«118593_j85847806313068_1_alg».proof.Proof.Gen.ReferenceIdeal
import proofs.«118593_j85847806313068_1_alg».proof.Proof.Gen.KernelIdeal.Value
import proofs.«118593_j85847806313068_1_alg».proof.Proof.Gen.ReferenceIdeal.Run
import proofs.«118593_j85847806313068_1_alg».proof.Proof.Gen.ReferenceIdeal.Read
import proofs.«118593_j85847806313068_1_alg».proof.Proof.Gen.Pre_finite_inputs
import proofs.«118593_j85847806313068_1_alg».proof.Proof.Blocks
import proofs.«118593_j85847806313068_1_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the two argument stacks, the kernel's two result arrays and the reference's two results
    are the two whole results of the two-sided attention of those stacks. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v23_eq, Cert.ReferenceIdeal.RefValue.resultA_eq, (hagree c).1, (hagree c).2]
  · rw [Cert.ReferenceIdeal.Read.val_main_v24_eq, Cert.ReferenceIdeal.RefValue.resultB_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
